-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x2048 : Shape := ⟨2, ![20000, 2048]⟩
abbrev S128x128 : Shape := ⟨2, ![128, 128]⟩
abbrev S2048 : Shape := ⟨1, ![2048]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x2048 : S_.BroadcastsInDim S20000x2048 (![] : Fin 0 → Fin S20000x2048.rank)
  reducesTo_S20000x2048_S_d0_1 : S20000x2048.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S20000x128 .f32) (main_arg1 : FVec F S20000x2048 .f32) (main_arg2 : FVec F S128x128 .f32) (main_arg3 : FVec F S128x128 .f32) (main_arg4 : IVec S2048 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x2048 .f32 := Host.absf main_arg1
  let main_cst_0 : FVec F S_ .f32 := constant S_ .f32 0x7F800000#32
  let main_v5 : FVec F S20000x2048 .f32 := broadcastInDim S20000x2048 ![] bcast_S_S20000x2048 main_cst_0
  let main_v6 : IVec S20000x2048 1 := cmpf .olt main_v4 main_v5
  let main_c_1 : IVec S_ 1 := constantI S_ 1 1#1
  let main_v7 : IVec S_ 1 := (fun x v => Host.reduce IntOp.andi x v reducesTo_S20000x2048_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S20000x128 : Shape := ⟨2, ![20000, 128]⟩
abbrev S20000x2048 : Shape := ⟨2, ![20000, 2048]⟩
abbrev S128x128 : Shape := ⟨2, ![128, 128]⟩
abbrev S2048 : Shape := ⟨1, ![2048]⟩
abbrev S_ : Shape := ⟨0, ![]⟩
abbrev S2048x1 : Shape := ⟨2, ![2048, 1]⟩
abbrev S2048x128 : Shape := ⟨2, ![2048, 128]⟩
abbrev S1000x2048 : Shape := ⟨2, ![1000, 2048]⟩
abbrev S1000x128 : Shape := ⟨2, ![1000, 128]⟩

abbrev nBuf : Space → Nat
  | .hbm => 19
  | .vmem => 6
  | .smem => 0
  | _ => 0

abbrev bufTy : (tb : Table) → Fin (tcTables nBuf tb) → BufTy
  | .hbm, ⟨0, _⟩ => ⟨S20000x128, .f32⟩
  | .hbm, ⟨1, _⟩ => ⟨S20000x2048, .f32⟩
  | .hbm, ⟨2, _⟩ => ⟨S128x128, .f32⟩
  | .hbm, ⟨3, _⟩ => ⟨S128x128, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x128, .f32⟩
  | .hbm, ⟨14, _⟩ => ⟨S2048x128, .f32⟩
  | .hbm, ⟨15, _⟩ => ⟨S2048x128, .bf16⟩
  | .hbm, ⟨16, _⟩ => ⟨S128x128, .f32⟩
  | .hbm, ⟨17, _⟩ => ⟨S128x128, .bf16⟩
  | .hbm, ⟨18, _⟩ => ⟨S20000x128, .f32⟩
  | .local _ .vmem, ⟨0, _⟩ => ⟨S1000x2048, .f32⟩
  | .local _ .vmem, ⟨1, _⟩ => ⟨S1000x2048, .f32⟩
  | .local _ .vmem, ⟨2, _⟩ => ⟨S2048x128, .bf16⟩
  | .local _ .vmem, ⟨3, _⟩ => ⟨S128x128, .bf16⟩
  | .local _ .vmem, ⟨4, _⟩ => ⟨S1000x128, .f32⟩
  | .local _ .vmem, ⟨5, _⟩ => ⟨S1000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  transposes_S128x128_S128x128_1_0 : S128x128.Transposes [1, 0] S128x128
  inb_S1000x2048_S1000x2048_0_0 : ∀ a, (![0, 0] : Fin 2 → Nat) a + S1000x2048.size a ≤ S1000x2048.size a
  h_S1000x2048 : 0 < S1000x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x128_S1000x128_0_0 : ∀ a, (![0, 0] : Fin 2 → Nat) a + S1000x128.size a ≤ S1000x128.size a
  h_S1000x128 : 0 < S1000x128.numel
  gather_S20000x128_S2048x1_S2048x128_1_0_n_n_0_1_1128_wf : GatherDims.WF S20000x128 S2048x1 S2048x128 [1] [0] [] [0] [] 1 ![1, 128]
  dot_S2048x128_S128x128_S2048x128_1_0_0_1_n_n_wf : DotDims.WF S2048x128 S128x128 S2048x128 [1] [0] [0] [1] [] []
  dot_S1000x2048_S2048x128_S1000x128_1_0_0_1_n_n_wf : DotDims.WF S1000x2048 S2048x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S20000x2048.size a
  hwx0_0 : ∀ i : grid0.Coords, EltTy.bits .f32 = 32 ∨ (Rect.block (s := S20000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S20000x128.size a
  hwx0_3 : ∀ i : grid0.Coords, EltTy.bits .f32 = 32 ∨ (Rect.block (s := S20000x128) S1000x128.size (cc0_transform_3 i) (hinb0_3 i)).WholeWords (EltTy.packing .f32)

variable [Facts₀]

def gather_S20000x128_S2048x1_S2048x128_1_0_n_n_0_1_1128 : GatherDims S20000x128 S2048x1 S2048x128 where
  offsetDims := [1]
  collapsedSliceDims := [0]
  operandBatchingDims := []
  startIndicesBatchingDims := []
  startIndexMap := [0]
  indexVectorDim := 1
  sliceSizes := ![1, 128]
  wf := gather_S20000x128_S2048x1_S2048x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1000x2048_S2048x128_S1000x128_1_0_0_1_n_n : DotDims S1000x2048 S2048x128 S1000x128 where
  lhsContracting := [1]
  rhsContracting := [0]
  lhsNonContracting := [0]
  rhsNonContracting := [1]
  lhsBatch := []
  rhsBatch := []
  wf := dot_S1000x2048_S2048x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg1) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20000x128 : Shape := ⟨2, ![20000, 128]⟩
abbrev S20000x2048 : Shape := ⟨2, ![20000, 2048]⟩
abbrev S128x128 : Shape := ⟨2, ![128, 128]⟩
abbrev S2048 : Shape := ⟨1, ![2048]⟩
abbrev S_ : Shape := ⟨0, ![]⟩
abbrev S2048x1 : Shape := ⟨2, ![2048, 1]⟩
abbrev S2048x128 : Shape := ⟨2, ![2048, 128]⟩

abbrev nBuf : Space → Nat
  | .hbm => 25
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x2048, .f32⟩
  | .hbm, ⟨2, _⟩ => ⟨S128x128, .f32⟩
  | .hbm, ⟨3, _⟩ => ⟨S128x128, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x128, .f32⟩
  | .hbm, ⟨14, _⟩ => ⟨S2048x128, .f32⟩
  | .hbm, ⟨15, _⟩ => ⟨S20000x128, .f32⟩
  | .hbm, ⟨16, _⟩ => ⟨S_, .f32⟩
  | .hbm, ⟨17, _⟩ => ⟨S20000x128, .f32⟩
  | .hbm, ⟨18, _⟩ => ⟨S20000x128, .i1⟩
  | .hbm, ⟨19, _⟩ => ⟨S_, .f32⟩
  | .hbm, ⟨20, _⟩ => ⟨S20000x128, .f32⟩
  | .hbm, ⟨21, _⟩ => ⟨S20000x128, .f32⟩
  | .hbm, ⟨22, _⟩ => ⟨S20000x128, .f32⟩
  | .hbm, ⟨23, _⟩ => ⟨S128x128, .f32⟩
  | .hbm, ⟨24, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S20000x128 : S_.BroadcastsInDim S20000x128 (![] : Fin 0 → Fin S20000x128.rank)
  transposes_S128x128_S128x128_1_0 : S128x128.Transposes [1, 0] S128x128
  gather_S20000x128_S2048x1_S2048x128_1_0_n_n_0_1_1128_wf : GatherDims.WF S20000x128 S2048x1 S2048x128 [1] [0] [] [0] [] 1 ![1, 128]
  dot_S2048x128_S128x128_S2048x128_1_0_0_1_n_n_wf : DotDims.WF S2048x128 S128x128 S2048x128 [1] [0] [0] [1] [] []
  dot_S20000x2048_S2048x128_S20000x128_1_0_0_1_n_n_wf : DotDims.WF S20000x2048 S2048x128 S20000x128 [1] [0] [0] [1] [] []
  dot_S20000x128_S128x128_S20000x128_1_0_0_1_n_n_wf : DotDims.WF S20000x128 S128x128 S20000x128 [1] [0] [0] [1] [] []

variable [Facts₀]

def gather_S20000x128_S2048x1_S2048x128_1_0_n_n_0_1_1128 : GatherDims S20000x128 S2048x1 S2048x128 where
  offsetDims := [1]
  collapsedSliceDims := [0]
  operandBatchingDims := []
  startIndicesBatchingDims := []
  startIndexMap := [0]
  indexVectorDim := 1
  sliceSizes := ![1, 128]
  wf := gather_S20000x128_S2048x1_S2048x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S20000x2048_S2048x128_S20000x128_1_0_0_1_n_n : DotDims S20000x2048 S2048x128 S20000x128 where
  lhsContracting := [1]
  rhsContracting := [0]
  lhsNonContracting := [0]
  rhsNonContracting := [1]
  lhsBatch := []
  rhsBatch := []
  wf := dot_S20000x2048_S2048x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Spec.lean ====
/-
  What both programs compute, as one function of three arrays, entry by entry, on the extended reals.
  With A the 20000×2048 adjacency matrix, S the 2048×128 support matrix and D the 128×128 (already transposed)
  dense weight:
      out(r, q) = Σ_k  lrelu( Σ_j A(r, j) · S(j, k) ) · D(k, q),
  where lrelu(h) is h where h ≥ 0 and slope · h elsewhere, the slope the one f32 literal both programs carry.
  Row r of the result depends on row r of A only: `rowOut` is that dependence, and the whole array is `rowOut`
  of each row. No law of arithmetic is used anywhere: the two programs form the same sums of the same products
  in the same grouping, so nothing here asks the entries to be finite.
-/
import Idealize.ShloMosaic.PureOps.Ideal
import Idealize.ShloMosaic.Lib.ValueIdx

noncomputable section

namespace Cert.Spec

open Idealize.ShloMosaic Idealize.ShloMosaic.ValueIdx
open scoped BigOperators

/-- The leaky rectifier on the extended reals: `h` where `h ≥ 0`, the slope literal times `h` elsewhere. -/
def lrelu (h : Ideal .f32) : Ideal .f32 :=
  Scalar.select (FloatOps.cmpf .oge h (FloatOps.ofBits (F := Ideal) .f32 0x00000000#32)) h
    (FloatOps.mulf (FloatOps.ofBits (F := Ideal) .f32 0x3C23D70A#32) h)

/-- Entry `q` of the result row that one row `a` of the adjacency matrix gives: the row times the support matrix,
    rectified entry by entry, times the dense weight. -/
def rowOut (a : Fin 2048 → EReal) (S : (⟨2, ![2048, 128]⟩ : Shape).Idx → EReal)
    (D : (⟨2, ![128, 128]⟩ : Shape).Idx → EReal) (q : Fin 128) : EReal :=
  ∑ k : Fin 128, lrelu (∑ j : Fin 2048, a j * S (ix2 j k)) * D (ix2 k q)

/-- The whole result: entry (r, q) is `rowOut` of row r of the adjacency matrix at q. -/
def G (A : (⟨2, ![20000, 2048]⟩ : Shape).Idx → EReal) (S : (⟨2, ![2048, 128]⟩ : Shape).Idx → EReal)
    (D : (⟨2, ![128, 128]⟩ : Shape).Idx → EReal) : (⟨2, ![20000, 128]⟩ : Shape).Idx → EReal :=
  fun i => rowOut (fun j => A (ix2 (⟨(i 0).val, idx2_lt0 i⟩ : Fin 20000) j)) S D ⟨(i 1).val, idx2_lt1 i⟩

/-- At an index given by its coordinates. -/
theorem G_apply (A : (⟨2, ![20000, 2048]⟩ : Shape).Idx → EReal) (S : (⟨2, ![2048, 128]⟩ : Shape).Idx → EReal)
    (D : (⟨2, ![128, 128]⟩ : Shape).Idx → EReal) (r : Fin 20000) (q : Fin 128) :
    G A S D (ix2 r q) = rowOut (fun j => A (ix2 r j)) S D q := rfl

end Cert.Spec

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KernelPayload.lean ====
/-
  What the kernel body stores, read at one entry, at the ideal values. From a 1000×2048 block x0 of the adjacency
  matrix, the whole support matrix x1 and the whole transposed dense weight x2 (both held as bf16, which is no
  change of value here), the stored 1000×128 block at (p, q) is
      Σ_k lrelu( Σ_j x0(p, j) · x1(j, k) ) · x2(k, q),
  the specification's `rowOut` of row p of the block: each of the two matrix products is a plain product
  accumulated into zero, the changes of format and the shape casts to the same shape are the identity, and the
  comparison, the product with the slope and the selection act entry by entry.
-/
import proofs.«141349_j27109833572726_1_alg».proof.Proof.Gen.KernelIdeal.Skeleton
import proofs.«141349_j27109833572726_1_alg».proof.Proof.Spec
import proofs.«141349_j27109833572726_1_alg».proof.Proof.LibPlainDot
import Idealize.ShloMosaic.Lib.Pipeline.Value

noncomputable section

namespace Cert.KernelIdeal.Payload

open Cert.KernelIdeal Cert.KernelIdeal.Gen
open Idealize.ShloMosaic Idealize.ShloMosaic.ValueIdx
open scoped BigOperators

/-- Block of adjacency × support at (p, k): the sum over j of x0(p, j) · x1(j, k). -/
theorem adj_support_apply (x0 : FVec Ideal S1000x2048 .f32) (x1 : FVec Ideal S2048x128 .bf16) (p : Fin 1000) (k : Fin 128) :
    matmul dot_S1000x2048_S2048x128_S1000x128_1_0_0_1_n_n none (truncf .bf16 x0 bitsLt_bf16_f32) x1
        (constant (F := Ideal) S1000x128 .f32 0x00000000#32) (ix2 p k)
      = ∑ j : Fin 2048, x0 (ix2 p j) * x1 (ix2 j k) :=
  Cert.LibPlainDot.matmul_plain_zero_apply dot_S1000x2048_S2048x128_S1000x128_1_0_0_1_n_n rfl none _ _ p k

/-- The stored block at (p, q) is the specification's `rowOut` of row p of the adjacency block. -/
theorem pay_apply (x0 : FVec Ideal S1000x2048 .f32) (x1 : FVec Ideal S2048x128 .bf16) (x2 : FVec Ideal S128x128 .bf16)
    (p : Fin 1000) (q : Fin 128) :
    k0_pay1 (F := Ideal) x0 x1 x2 (ix2 p q) = Spec.rowOut (fun j => x0 (ix2 p j)) x1 x2 q := by
  unfold k0_pay1
  refine (Cert.LibPlainDot.matmul_plain_zero_apply dot_S1000x128_S128x128_S1000x128_1_0_0_1_n_n rfl none _ _ p q).trans ?_
  unfold Spec.rowOut
  refine Finset.sum_congr rfl fun k _ => ?_
  simp only [shapeCast_self]
  refine congrArg (· * x2 (ix2 k q)) ?_
  refine Eq.trans ?_ (congrArg Spec.lrelu (adj_support_apply x0 x1 p k))
  rfl

end Cert.KernelIdeal.Payload

end
-- ==== Proof.KernelArray.lean ====
/-
  From the blocks to the whole array. The grid has 20 points; point t reads rows 1000·t … 1000·t + 999 of the
  adjacency matrix (all 2048 columns), the whole support matrix and the whole dense weight, and writes back rows
  1000·t … 1000·t + 999 of the result (all 128 columns). So what point t writes back is block t of ONE function of
  the arrays the region finds — the specification `Spec.G` of them — because entry (p, q) of the stored block is
  `rowOut` of row p of the adjacency block, which is row 1000·t + p of the adjacency matrix; and the 20 blocks
  cover every row (row r lies in block r / 1000). Hence the result array after the run is that function.
-/
import proofs.«141349_j27109833572726_1_alg».proof.Proof.Gen.KernelIdeal.Value
import proofs.«141349_j27109833572726_1_alg».proof.Proof.KernelPayload

noncomputable section

namespace Cert.KernelIdeal.ArrayValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The specification of the three arrays as the region finds them. -/
def result (c : Dev nD) : S20000x128.Idx → EReal :=
  Spec.G (V m c main_arg1) (V m c main_v8) (V m c main_v10)

/-- The block indices at each of the 20 points, decided: the adjacency window moves down the rows with the output
    window and stays at column block 0; the support and dense-weight windows stay at their one block; the
    output's row block is at most 19 and its column block is 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every one of the 20 row blocks is some point's. -/
theorem index_onto : ∀ b : Fin 20, ∃ t : Fin cfg0.N, win0_3.index t = ![b.val, 0] :=
  (by decide +kernel : ∀ b : Fin 20, ∃ t : Fin grid0.N, win0_3.index t = ![b.val, 0])

/-- Row p of the adjacency block at point t is row (block index)·1000 + p of the adjacency matrix. -/
theorem adjacency_block (c : Dev nD) (t : Fin cfg0.N) (p : Fin 1000) (j : Fin 2048) (r : Fin 20000)
    (hr : r.val = win0_3.index t (0 : Fin 2) * 1000 + p.val) :
    iblk m c 0 t (ix2 p j) = V m c main_arg1 (ix2 r j) := by
  obtain ⟨e0, e1, -⟩ := index_facts t
  show V m c main_arg1 (((cfg0.win 0).blk t).view.emb (ix2 p j)) = V m c main_arg1 (ix2 r j)
  refine congrArg (V m c main_arg1) (funext fun a => Fin.ext ?_)
  match a with
  | ⟨0, _⟩ => show win0_0.index t (0 : Fin 2) * 1000 + 1 * p.val = r.val; omega
  | ⟨1, _⟩ => show win0_0.index t (1 : Fin 2) * 2048 + 1 * j.val = j.val; omega

/-- The support window's block at any point is the whole support array. -/
theorem support_block (c : Dev nD) (t : Fin cfg0.N) : iblk m c 1 t = V m c main_v8 := by
  obtain ⟨-, -, e0, e1, -⟩ := index_facts t
  funext y
  show V m c main_v8 (((cfg0.win 1).blk t).view.emb y) = V m c main_v8 y
  refine congrArg (V m c main_v8) (funext fun a => Fin.ext ?_)
  match a with
  | ⟨0, _⟩ => show win0_1.index t (0 : Fin 2) * 2048 + 1 * (y 0).val = (y 0).val; omega
  | ⟨1, _⟩ => show win0_1.index t (1 : Fin 2) * 128 + 1 * (y 1).val = (y 1).val; omega

/-- The dense-weight window's block at any point is the whole dense-weight array. -/
theorem weight_block (c : Dev nD) (t : Fin cfg0.N) : iblk m c 2 t = V m c main_v10 := by
  obtain ⟨-, -, -, -, e0, e1, -⟩ := index_facts t
  funext y
  show V m c main_v10 (((cfg0.win 2).blk t).view.emb y) = V m c main_v10 y
  refine congrArg (V m c main_v10) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- What point t writes back is block t of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S1000x2048) zero_offsets, View.ld_unit_zero (S := S2048x128) zero_offsets,
    View.ld_unit_zero (S := S128x128) zero_offsets]
  obtain ⟨-, -, -, -, -, -, e6, e7⟩ := index_facts t
  funext y
  obtain ⟨p, q, rfl⟩ : ∃ (p : Fin 1000) (q : Fin 128), y = ix2 p q := ⟨y 0, y 1, eq_ix2 y⟩
  have hr : win0_3.index t (0 : Fin 2) * 1000 + p.val < 20000 := by have := p.isLt; omega
  show k0_pay1 (iblk m c 0 t) (iblk m c 1 t) (iblk m c 2 t) (ix2 p q)
    = result m c (((cfg0.win 3).blk t).view.emb (ix2 p q))
  have hemb : ((cfg0.win 3).blk t).view.emb (ix2 p q)
      = ix2 (⟨win0_3.index t (0 : Fin 2) * 1000 + p.val, hr⟩ : Fin 20000) q :=
    funext fun a => Fin.ext (by
      match a with
      | ⟨0, _⟩ => show win0_3.index t (0 : Fin 2) * 1000 + 1 * p.val = win0_3.index t (0 : Fin 2) * 1000 + p.val; omega
      | ⟨1, _⟩ => show win0_3.index t (1 : Fin 2) * 128 + 1 * q.val = q.val; omega)
  rw [hemb]
  unfold result
  rw [Spec.G_apply]
  refine (Payload.pay_apply (iblk m c 0 t) (iblk m c 1 t) (iblk m c 2 t) p q).trans ?_
  rw [support_block, weight_block]
  refine congrArg (fun a => Spec.rowOut a (V m c main_v8) (V m c main_v10) q) (funext fun j => ?_)
  exact adjacency_block m c t p j _ rfl

/-- An index of the result array is in point t's block iff each coordinate is in the block's range on its axis. -/
theorem mem_block (t : Fin cfg0.N) (i : S20000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v11).slice (win0_3.rect t)).set ↔ _
  rw [View.set_slice_whole, Rect.mem_set_unit]
  exact Iff.rfl

/-- Every index of the result array is in some point's block: row r is in block r / 1000. -/
theorem covered (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ := index_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 128 ≤ (i 1).val ∧ (i 1).val < win0_3.index t (1 : Fin 2) * 128 + 128
    omega

/-- The result array after the run is `result`. -/
theorem final (c : Dev nD) : (dats m 0 c).arrAt 3 cfg0.N = result m c :=
  (dats m 0 c).arrAt_eq_of_cover 3 (result m c) (fun t _ => flushed_eq m c t) covered

end Cert.KernelIdeal.ArrayValue

end
-- ==== Proof.KernelHost.lean ====
/-
  What the kernel's region finds in the two arrays that the host operations before it wrote, at the ideal values.
  The support array (window 1) is the gathered rows of the first argument times the shared weight — the very
  operations, on the very arguments, by which the reference forms ITS support matrix, followed by a change of
  format that is no change of value; the dense-weight array (window 2) is the transposed fourth argument, as in
  the reference, again followed by a change of format only. Both are therefore stated as the reference's own
  stages of the kernel's arguments, and the gather and the first product are never opened.
-/
import proofs.«141349_j27109833572726_1_alg».proof.Proof.Gen.KernelIdeal.Frame
import proofs.«141349_j27109833572726_1_alg».proof.Proof.Gen.ReferenceIdeal.Read
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The support array as the region finds it: the reference's support stage of the kernel's arguments. -/
theorem support_eq (c : Dev nD) :
    (V m c main_v8 : S2048x128.Idx → EReal)
      = Cert.ReferenceIdeal.Read.val_main_v7 (F := Ideal) (m ((c : Thread nD τ).loc main_arg0))
          (m ((c : Thread nD τ).loc main_arg2)) (m ((c : Thread nD τ).loc main_arg4)) := by
  dsimp only [Gen.V, Gen.hostOps0]
  after_results
  rfl

/-- The dense-weight array as the region finds it: the reference's transposed-weight stage of the kernel's argument. -/
theorem weight_eq (c : Dev nD) :
    (V m c main_v10 : S128x128.Idx → EReal)
      = Cert.ReferenceIdeal.Read.val_main_v14 (F := Ideal) (m ((c : Thread nD τ).loc main_arg3)) := by
  dsimp only [Gen.V, Gen.hostOps0]
  after_results
  rfl

end Cert.KernelIdeal.HostValue

end
-- ==== Proof.KernelRun.lean ====
/-
  The kernel's run, read: every weakly fair execution ends with the result array at the specification `Spec.G` of
  the second argument (the adjacency matrix), of the support matrix formed from the first, third and fifth
  arguments, and of the transposed fourth argument — the last two written as the reference's own stages, applied
  to the kernel's arguments —, and with the five arguments unchanged.
-/
import proofs.«141349_j27109833572726_1_alg».proof.Proof.KernelArray
import proofs.«141349_j27109833572726_1_alg».proof.Proof.KernelHost

noncomputable section

namespace Cert.KernelIdeal.RunValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The specification of the arrays the region finds, in terms of the arguments as launched: the adjacency matrix
    is untouched by the host operations before the region, and the other two arrays are the reference's stages. -/
theorem result_eq (c : Dev nD) :
    ArrayValue.result m c
      = Spec.G (m ((c : Thread nD τ).loc main_arg1))
          (Cert.ReferenceIdeal.Read.val_main_v7 (F := Ideal) (m ((c : Thread nD τ).loc main_arg0))
            (m ((c : Thread nD τ).loc main_arg2)) (m ((c : Thread nD τ).loc main_arg4)))
          (Cert.ReferenceIdeal.Read.val_main_v14 (F := Ideal) (m ((c : Thread nD τ).loc main_arg3))) := by
  unfold ArrayValue.result
  rw [V_main_arg1, HostValue.support_eq, HostValue.weight_eq]

/-- The run with the result array named. -/
theorem run : θ_run defs (onTc (τ := τ) (main (F := Ideal))) ⟨m, fun _ => 0, ρ⟩ fun r => ∀ c : Dev nD,
      r.2.mem ((c : Thread nD τ).loc main_v11)
        = Spec.G (m ((c : Thread nD τ).loc main_arg1))
            (Cert.ReferenceIdeal.Read.val_main_v7 (F := Ideal) (m ((c : Thread nD τ).loc main_arg0))
              (m ((c : Thread nD τ).loc main_arg2)) (m ((c : Thread nD τ).loc main_arg4)))
            (Cert.ReferenceIdeal.Read.val_main_v14 (F := Ideal) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((ArrayValue.final m c).trans (result_eq m c)), (h c).2⟩)
    (Value.run_blocks m ρ)

end Cert.KernelIdeal.RunValue

end
-- ==== Proof.RefValue.lean ====
/-
  The reference's result is the specification `Spec.G` of the adjacency matrix, the support matrix and the
  transposed dense weight: its last product at entry (r, q) is the sum over k of the rectified entry (r, k) of
  adjacency × support times the transposed weight at (k, q), and adjacency × support at (r, k) is the sum over j.
  The support matrix (gathered rows times the shared weight) and the transposed dense weight are carried as the
  reference's own stages, never opened.
-/
import proofs.«141349_j27109833572726_1_alg».proof.Proof.Gen.ReferenceIdeal.Read
import proofs.«141349_j27109833572726_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 : (⟨S20000x128, .f32⟩ : BufTy).Contents (Elt Ideal)) (x1 : (⟨S20000x2048, .f32⟩ : BufTy).Contents (Elt Ideal))
  (x2 x3 : (⟨S128x128, .f32⟩ : BufTy).Contents (Elt Ideal)) (x4 : (⟨S2048, .i32⟩ : BufTy).Contents (Elt Ideal))

/-- Adjacency × support at (r, k): the sum over j of A(r, j) · S(j, k). -/
theorem adj_support_apply (r : Fin 20000) (k : Fin 128) :
    val_main_v8 (F := Ideal) x0 x1 x2 x4 (ix2 r k)
      = ∑ j : Fin 2048, x1 (ix2 r j) * val_main_v7 (F := Ideal) x0 x2 x4 (ix2 j k) := by
  rw [val_main_v8_apply]
  refine Finset.sum_congr rfl fun j _ => ?_
  have el : lidx_main_v8 (ix2 r k) j = ix2 r j :=
    funext fun a => Fin.ext (by match a with | ⟨0, _⟩ => rfl | ⟨1, _⟩ => rfl)
  have er : ridx_main_v8 (ix2 r k) j = ix2 j k :=
    funext fun a => Fin.ext (by match a with | ⟨0, _⟩ => rfl | ⟨1, _⟩ => rfl)
  rw [el, er]

/-- The rectified entry (r, k): `Spec.lrelu` of that sum (the comparison with the zero constant, the product with
    the slope constant and the selection, each read at the entry). -/
theorem hidden_apply (r : Fin 20000) (k : Fin 128) :
    val_main_v13 (F := Ideal) x0 x1 x2 x4 (ix2 r k)
      = Spec.lrelu (∑ j : Fin 2048, x1 (ix2 r j) * val_main_v7 (F := Ideal) x0 x2 x4 (ix2 j k)) := by
  rw [val_main_v13_apply, val_main_v10_apply, val_main_v12_apply, val_main_v9_apply, val_main_v11_apply,
    val_main_cst_apply, val_main_cst_1_apply, adj_support_apply]
  rfl

/-- The reference's result is `Spec.G` of the adjacency matrix, its own support stage and its own transposed weight. -/
theorem result_eq :
    val_main_v15 (F := Ideal) x0 x1 x2 x3 x4
      = Spec.G x1 (val_main_v7 (F := Ideal) x0 x2 x4) (val_main_v14 (F := Ideal) x3) := by
  funext i
  obtain ⟨r, q, rfl⟩ : ∃ (r : Fin 20000) (q : Fin 128), i = ix2 r q := ⟨i 0, i 1, eq_ix2 i⟩
  rw [val_main_v15_apply, Spec.G_apply]
  unfold Spec.rowOut
  refine Finset.sum_congr rfl fun k _ => ?_
  have el : lidx_main_v15 (ix2 r q) k = ix2 r k :=
    funext fun a => Fin.ext (by match a with | ⟨0, _⟩ => rfl | ⟨1, _⟩ => rfl)
  have er : ridx_main_v15 (ix2 r q) k = ix2 k q :=
    funext fun a => Fin.ext (by match a with | ⟨0, _⟩ => rfl | ⟨1, _⟩ => rfl)
  rw [el, er, hidden_apply]

end Cert.ReferenceIdeal.RefValue

end
-- ==== Proof.lean ====
/-
  The kernel and its reference compute one function on the extended reals.
  Both form the support matrix S (2048 gathered rows of x, times W) and the transposed dense weight D by the same
  host operations, and then, with A the 20000×2048 adjacency matrix,
      out(r, q) = Σ_k lrelu( Σ_j A(r, j) · S(j, k) ) · D(k, q),
  lrelu(h) being h where h ≥ 0 and the shared slope literal times h elsewhere. The reference does it with two
  whole-array products on the host; the kernel streams A through 20 blocks of 1000 rows, each grid point forming
  its 1000 result rows from its block of A and the whole of S and D (held as bf16, no change of value at the ideal
  instance). Since row r of the result depends on row r of A only, the blocks are the restrictions of one function
  and they cover the array. The sums are the same sums in the same grouping on both sides, so no arithmetic law
  is used and the finiteness of the inputs is never opened.
  The three frames are the kernels' frame runs and the reference's run with its result dropped; the idealization
  rewrote nothing, so `preserves` has nothing to state.
-/
import proofs.«141349_j27109833572726_1_alg».proof.Defs
import proofs.«141349_j27109833572726_1_alg».proof.Proof.Gen.Kernel
import proofs.«141349_j27109833572726_1_alg».proof.Proof.Gen.Kernel.Skeleton
import proofs.«141349_j27109833572726_1_alg».proof.Proof.Gen.Kernel.Launch
import proofs.«141349_j27109833572726_1_alg».proof.Proof.Gen.Kernel.Points
import proofs.«141349_j27109833572726_1_alg».proof.Proof.Gen.Kernel.Frame
import proofs.«141349_j27109833572726_1_alg».proof.Proof.Gen.KernelIdeal
import proofs.«141349_j27109833572726_1_alg».proof.Proof.Gen.KernelIdeal.Skeleton
import proofs.«141349_j27109833572726_1_alg».proof.Proof.Gen.KernelIdeal.Launch
import proofs.«141349_j27109833572726_1_alg».proof.Proof.Gen.KernelIdeal.Points
import proofs.«141349_j27109833572726_1_alg».proof.Proof.Gen.KernelIdeal.Frame
import proofs.«141349_j27109833572726_1_alg».proof.Proof.Gen.ReferenceIdeal
import proofs.«141349_j27109833572726_1_alg».proof.Proof.Gen.KernelIdeal.Value
import proofs.«141349_j27109833572726_1_alg».proof.Proof.Gen.ReferenceIdeal.Run
import proofs.«141349_j27109833572726_1_alg».proof.Proof.Gen.ReferenceIdeal.Read
import proofs.«141349_j27109833572726_1_alg».proof.Proof.Gen.Pre_finite_inputs
import proofs.«141349_j27109833572726_1_alg».proof.Proof.KernelRun
import proofs.«141349_j27109833572726_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments the two programs end with the same result array: the kernel's is
    the specification of its arguments, the reference's is the specification of its own, and the arguments agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
